-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 79
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S1700000x1, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S1x1600000, .i32⟩
  | .hbm, ⟨66, _⟩ => ⟨S1600000, .i32⟩
  | .hbm, ⟨67, _⟩ => ⟨S1x1600000, .i32⟩
  | .hbm, ⟨68, _⟩ => ⟨S1600000, .i32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000, .f32⟩
  | .hbm, ⟨100, _⟩ => ⟨S1700000, .f32⟩
  | .hbm, ⟨101, _⟩ => ⟨S100000x64, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x64, .f32⟩
  | .hbm, ⟨111, _⟩ => ⟨S1700000x1, .f32⟩
  | .hbm, ⟨112, _⟩ => ⟨S1700000x64, .f32⟩
  | .hbm, ⟨113, _⟩ => ⟨S1700000x64, .f32⟩
  | .hbm, ⟨114, _⟩ => ⟨S_, .f32⟩
  | .hbm, ⟨115, _⟩ => ⟨S100000x64, .f32⟩
  | .hbm, ⟨116, _⟩ => ⟨S1700000x1, .i32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result array named.
  @main is seven segments: three stretches of host operations and four pipelined regions. Every weakly fair
  execution ends with each unscoped buffer at the last segment boundary's contents; read at the result buffer
  this gives the result array, and read at the six argument buffers it gives the arguments as launched.
-/
import proofs.«139381_j81003083203566_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.HostStretch.lean ====
/-
  The host operations between the kernel's regions, read against the reference's stages.
  The kernel's program applies to the regions' outputs the same host operations the reference applies to its matrix
  products: the edge lists with self loops appended, the degree count and its inverse square root gathered at both ends of
  every edge, and per layer a row gather, a scaling by the edge weights and an accumulating scatter into zeros. Each
  stretch is read here from ANY buffer contents `W`: a buffer the stretch writes holds the reference's stage of the same
  name once the buffers it reads do, and a buffer it does not write holds what it held.
-/
import proofs.«139381_j81003083203566_1_alg».proof.Proof.Gen.KernelIdeal.Launch
import proofs.«139381_j81003083203566_1_alg».proof.Proof.Gen.ReferenceIdeal.Read
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]

/-! ## The reference computes the edge lists and weights once per layer: the two copies are one function -/

theorem src_second (x1) : val_main_v52 (F := F) x1 = val_main_v5 (F := F) x1 := rfl
theorem dst_second (x1) : val_main_v53 (F := F) x1 = val_main_v6 (F := F) x1 := rfl
theorem weight_second (x1) : val_main_v84 (F := F) x1 = val_main_v37 (F := F) x1 := rfl

/-! ## The first stretch: edge lists and edge weights from the edge array -/

variable (W : Valuation τ sig (Elt F))

theorem stretch0_src : StableHlo.after hostOps0 W (Proc.devRef .tc main_v5) = val_main_v5 (F := F) (W (Proc.devRef .tc main_arg1)) := by
  after_results_simp
  rfl

theorem stretch0_dst : StableHlo.after hostOps0 W (Proc.devRef .tc main_v6) = val_main_v6 (F := F) (W (Proc.devRef .tc main_arg1)) := by
  after_results_simp
  rfl

theorem stretch0_weight : StableHlo.after hostOps0 W (Proc.devRef .tc main_v29) = val_main_v37 (F := F) (W (Proc.devRef .tc main_arg1)) := by
  after_results_simp
  rfl

theorem stretch0_arg0 : StableHlo.after hostOps0 W (Proc.devRef .tc main_arg0) = W (Proc.devRef .tc main_arg0) := by
  after_results_simp
theorem stretch0_arg2 : StableHlo.after hostOps0 W (Proc.devRef .tc main_arg2) = W (Proc.devRef .tc main_arg2) := by
  after_results_simp
theorem stretch0_arg3 : StableHlo.after hostOps0 W (Proc.devRef .tc main_arg3) = W (Proc.devRef .tc main_arg3) := by
  after_results_simp
theorem stretch0_arg4 : StableHlo.after hostOps0 W (Proc.devRef .tc main_arg4) = W (Proc.devRef .tc main_arg4) := by
  after_results_simp
theorem stretch0_arg5 : StableHlo.after hostOps0 W (Proc.devRef .tc main_arg5) = W (Proc.devRef .tc main_arg5) := by
  after_results_simp

/-! ## The second stretch: layer 1's gather, scaling and accumulating scatter, and the bias row -/

theorem stretch1_agg (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F))
    (h30 : W (Proc.devRef .tc main_v30) = val_main_v29 (F := F) x0 x2)
    (h5 : W (Proc.devRef .tc main_v5) = val_main_v5 (F := F) x1)
    (h6 : W (Proc.devRef .tc main_v6) = val_main_v6 (F := F) x1)
    (h29 : W (Proc.devRef .tc main_v29) = val_main_v37 (F := F) x1) :
    StableHlo.after hostOps1 W (Proc.devRef .tc main_v42) = val_main_v42 (F := F) x0 x1 x2 := by
  after_results_simp
  rw [h30, h5, h6, h29]
  rfl

theorem stretch1_bias : StableHlo.after hostOps1 W (Proc.devRef .tc main_v43)
    = shapeCast S1x128 (W (Proc.devRef .tc main_arg3) : (⟨S128, .f32⟩ : BufTy).Contents (Elt F)) shapeCasts_S128_S1x128 := by
  after_results_simp
  rfl

theorem stretch1_src : StableHlo.after hostOps1 W (Proc.devRef .tc main_v5) = W (Proc.devRef .tc main_v5) := by
  after_results_simp
theorem stretch1_dst : StableHlo.after hostOps1 W (Proc.devRef .tc main_v6) = W (Proc.devRef .tc main_v6) := by
  after_results_simp
theorem stretch1_weight : StableHlo.after hostOps1 W (Proc.devRef .tc main_v29) = W (Proc.devRef .tc main_v29) := by
  after_results_simp
theorem stretch1_arg4 : StableHlo.after hostOps1 W (Proc.devRef .tc main_arg4) = W (Proc.devRef .tc main_arg4) := by
  after_results_simp
theorem stretch1_arg5 : StableHlo.after hostOps1 W (Proc.devRef .tc main_arg5) = W (Proc.devRef .tc main_arg5) := by
  after_results_simp

/-! ## The third stretch: layer 2's gather, scaling and accumulating scatter, and the bias row -/

theorem stretch3_agg (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F))
    (x3 : (⟨Cert.ReferenceIdeal.S128, .f32⟩ : BufTy).Contents (Elt F))
    (x4 : (⟨Cert.ReferenceIdeal.S128x64, .f32⟩ : BufTy).Contents (Elt F))
    (h45 : W (Proc.devRef .tc main_v45) = val_main_v76 (F := F) x0 x1 x2 x3 x4)
    (h5 : W (Proc.devRef .tc main_v5) = val_main_v5 (F := F) x1)
    (h6 : W (Proc.devRef .tc main_v6) = val_main_v6 (F := F) x1)
    (h29 : W (Proc.devRef .tc main_v29) = val_main_v37 (F := F) x1) :
    StableHlo.after hostOps3 W (Proc.devRef .tc main_v57) = val_main_v89 (F := F) x0 x1 x2 x3 x4 := by
  after_results_simp
  rw [h45, h5, h6, h29, ← src_second, ← dst_second, ← weight_second]
  rfl

theorem stretch3_bias : StableHlo.after hostOps3 W (Proc.devRef .tc main_v58)
    = shapeCast S1x64 (W (Proc.devRef .tc main_arg5) : (⟨S64, .f32⟩ : BufTy).Contents (Elt F)) shapeCasts_S64_S1x64 := by
  after_results_simp
  rfl

end Cert.KernelIdeal.Hand

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.ProductSpec.lean ====
/-
  The matrix product as one function of two arrays, index by index, on the extended reals:
  entry (p, q) of an [M, K] by [K, N] product is the sum over the K shared coordinates of l (p, k) · r (k, q).
  The matrix unit's product into a zero accumulator and the host's dot_general with the plain dimension numbers
  (axis 1 of the left operand against axis 0 of the right, no batch axes) are both this function.
-/
import proofs.«139381_j81003083203566_1_alg».proof.Proof.LibPlainProduct

noncomputable section

namespace Idealize.ShloMosaic.ValueIdx

open Idealize.ShloMosaic

/-- Entry `i` of the product: the sum over the shared axis of the left operand's row `i 0` against the right operand's
    column `i 1`. -/
def plainProduct {M K N : ℕ} (l : (⟨2, ![M, K]⟩ : Shape).Idx → EReal) (r : (⟨2, ![K, N]⟩ : Shape).Idx → EReal) :
    (⟨2, ![M, N]⟩ : Shape).Idx → EReal :=
  fun i => ∑ k : Fin K, l (ix2 (⟨(i 0).val, (i 0).isLt⟩ : Fin M) k) * r (ix2 k (⟨(i 1).val, (i 1).isLt⟩ : Fin N))

theorem plainProduct_apply {M K N : ℕ} (l : (⟨2, ![M, K]⟩ : Shape).Idx → EReal) (r : (⟨2, ![K, N]⟩ : Shape).Idx → EReal)
    (p : Fin M) (q : Fin N) : plainProduct l r (ix2 p q) = ∑ k : Fin K, l (ix2 p k) * r (ix2 k q) := rfl

/-- The matrix unit's plain product into a zero accumulator is the product, as whole arrays. -/
theorem matmul_zero_eq_plainProduct {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = plainProduct l r := by
  funext j
  obtain ⟨p, q, rfl⟩ : ∃ (p : Fin M) (q : Fin N), j = ix2 p q := ⟨j 0, j 1, eq_ix2 j⟩
  rw [plainProduct_apply]
  exact matmul_zero_plain_apply d hlc hrc hln hrn hlb hrb prec l r p q

/-- The host's plain dot_general is the product, as whole arrays. -/
theorem dotGeneral_eq_plainProduct {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂) :
    FloatOps.dotGeneral d prec sched l r = plainProduct l r := by
  funext j
  obtain ⟨p, q, rfl⟩ : ∃ (p : Fin M) (q : Fin N), j = ix2 p q := ⟨j 0, j 1, eq_ix2 j⟩
  rw [plainProduct_apply]
  exact dotGeneral_plain_apply d hlc hrc hln hrn hlb hrb prec sched l r p q

end Idealize.ShloMosaic.ValueIdx

end
-- ==== Proof.Region0.lean ====
/-
  Region 0 (the first matrix product, tiled over row blocks of 10000) as one whole-array function.
  At grid point t the body loads rows 10000·t … 10000·t + 9999 of the left array and the whole right matrix, and stores
  their product (the formats' change is the identity on the extended reals); the ten blocks tile the result array.
  So the result array ends holding the product of the two arrays as the region finds them, index by index.
-/
import proofs.«139381_j81003083203566_1_alg».proof.Proof.Gen.KernelIdeal.Frame
import proofs.«139381_j81003083203566_1_alg».proof.Proof.ProductSpec
import Idealize.ShloMosaic.Lib.Pipeline.Value

set_option maxRecDepth 16384

noncomputable section

namespace Cert.KernelIdeal.Hand.Region0

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-- The body's stored value is the product of its two loaded blocks. -/
theorem body0_product (x0 : Vec Ideal S10000x128 .f32) (x1 : Vec Ideal S128x128 .f32) :
    k0_pay1 x0 x1 = plainProduct x0 x1 := by
  unfold k0_pay1
  exact matmul_zero_eq_plainProduct dot_S10000x128_S128x128_S10000x128_1_0_0_1_n_n rfl rfl rfl rfl rfl rfl none _ _

/-- A block of rows times the matrix is the block of rows of the whole product: entry (p, q) of block `b` is entry
    (10000·b + p, q) of the product of the whole arrays. -/
theorem rows_product (X : S100000x128.Idx → EReal) (Wt : S128x128.Idx → EReal)
    (x0 : S10000x128.Idx → EReal) (x1 : S128x128.Idx → EReal) (b : ℕ) (hb : b < 10)
    (h0 : ∀ (p : Fin 10000) (k : Fin 128), x0 (ix2 p k) = X (ix2 (⟨b * 10000 + p.val, by have := p.isLt; omega⟩ : Fin 100000) k))
    (h1 : ∀ (k : Fin 128) (q : Fin 128), x1 (ix2 k q) = Wt (ix2 k q))
    (y : S10000x128.Idx) (i : S100000x128.Idx) (hi0 : (i 0).val = b * 10000 + (y 0).val) (hi1 : (i 1).val = (y 1).val) :
    plainProduct x0 x1 y = plainProduct X Wt i := by
  show ∑ k : Fin 128, x0 (ix2 (⟨(y 0).val, (y 0).isLt⟩ : Fin 10000) k) * x1 (ix2 k (⟨(y 1).val, (y 1).isLt⟩ : Fin 128))
    = ∑ k : Fin 128, X (ix2 (⟨(i 0).val, (i 0).isLt⟩ : Fin 100000) k) * Wt (ix2 k (⟨(i 1).val, (i 1).isLt⟩ : Fin 128))
  refine Finset.sum_congr rfl fun k _ => ?_
  rw [h0, h1]
  exact congrArg₂ (· * ·) (congrArg (fun r => X (ix2 r k)) (Fin.ext hi0.symm)) (congrArg (fun r => Wt (ix2 k r)) (Fin.ext hi1.symm))

variable (V : (c : Dev nD) → (b : Ref sig .tc) → Buf (Elt Ideal) ((c : Thread nD τ).loc b))

/-- The printed index maps over the grid: the row-block windows move with the point, the matrix window stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point0_lt (t : Fin cfg0.N) : t.val < 10 := by
  have h := t.isLt
  have hN : cfg0.N = 10 := N_0
  omega

/-- The left window's block at point t is rows 10000·t … of the left array. -/
theorem lhs_block0 (c : Dev nD) (t : Fin cfg0.N) (p : Fin 10000) (k : Fin 128) :
    (iblk0 V c 0 t : S10000x128.Idx → EReal) (ix2 p k)
      = (V c main_arg0 : S100000x128.Idx → EReal) (ix2 (⟨t.val * 10000 + p.val, by have := p.isLt; have := point0_lt t; omega⟩ : Fin 100000) k) := by
  unfold iblk0
  rw [View.read_apply]
  show V c main_arg0 _ = V c main_arg0 _
  congr 1
  funext a
  apply Fin.ext
  obtain ⟨e0, e1, -⟩ := index0 t
  match a with
  | ⟨0, _⟩ => show win0_0.index t 0 * 10000 + 1 * p.val = t.val * 10000 + p.val; rw [e0]; omega
  | ⟨1, _⟩ => show win0_0.index t 1 * 128 + 1 * k.val = k.val; rw [e1]; omega

/-- The right window's block is the whole right matrix at every point. -/
theorem rhs_block0 (c : Dev nD) (t : Fin cfg0.N) (k : Fin 128) (q : Fin 128) :
    (iblk0 V c 1 t : S128x128.Idx → EReal) (ix2 k q) = (V c main_arg2 : S128x128.Idx → EReal) (ix2 k q) := by
  unfold iblk0
  rw [View.read_apply]
  show V c main_arg2 _ = V c main_arg2 _
  congr 1
  funext a
  apply Fin.ext
  obtain ⟨-, -, e0, e1, -⟩ := index0 t
  match a with
  | ⟨0, _⟩ => show win0_1.index t 0 * 128 + 1 * k.val = k.val; rw [e0]; omega
  | ⟨1, _⟩ => show win0_1.index t 1 * 128 + 1 * q.val = q.val; rw [e1]; omega

/-- What point t writes back is block t of the product of the two arrays. -/
theorem flushed0 (c : Dev nD) (t : Fin cfg0.N) :
    (dat0 V c).flushed 2 t = ((cfg0.win 2).blk t).view.read (Elt Ideal) (plainProduct (V c main_arg0) (V c main_arg2)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  rw [body0_product]
  funext j
  rw [View.read_apply]
  obtain ⟨-, -, -, -, e0, e1⟩ := index0 t
  refine rows_product (V c main_arg0) (V c main_arg2) (iblk0 V c 0 t) (iblk0 V c 1 t) t.val (point0_lt t)
    (lhs_block0 V c t) (rhs_block0 V c t) j _ ?_ ?_
  · show win0_2.index t 0 * 10000 + 1 * (j 0).val = t.val * 10000 + (j 0).val; rw [e0]; omega
  · show win0_2.index t 1 * 128 + 1 * (j 1).val = (j 1).val; rw [e1]; omega

/-- The ten row blocks tile the result array. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have hlt : (i 0).val / 10000 < cfg0.N := by rw [hN]; omega
  refine ⟨⟨(i 0).val / 10000, hlt⟩, flush0_2 _, ?_⟩
  show i ∈ ((View.whole main_v30).slice (win0_2.rect ⟨(i 0).val / 10000, hlt⟩)).set
  rw [View.set_slice_whole, Rect.mem_set_unit]
  obtain ⟨-, -, -, -, e0, e1⟩ := index0 ⟨(i 0).val / 10000, hlt⟩
  intro a
  match a with
  | ⟨0, _⟩ =>
    show win0_2.index _ 0 * 10000 ≤ (i 0).val ∧ (i 0).val < win0_2.index _ 0 * 10000 + 10000
    rw [e0]; show (i 0).val / 10000 * 10000 ≤ (i 0).val ∧ (i 0).val < (i 0).val / 10000 * 10000 + 10000; omega
  | ⟨1, _⟩ =>
    show win0_2.index _ 1 * 128 ≤ (i 1).val ∧ (i 1).val < win0_2.index _ 1 * 128 + 128
    rw [e1]; omega

/-- THE RESULT ARRAY of region 0: the product of the left array and the matrix as the region finds them. -/
theorem region0_array (c : Dev nD) :
    (dat0 V c).arrAt 2 cfg0.N = plainProduct (V c main_arg0) (V c main_arg2) :=
  (dat0 V c).arrAt_eq_of_cover 2 (plainProduct (V c main_arg0) (V c main_arg2)) (fun t _ => flushed0 V c t) (cover0 c)

end Cert.KernelIdeal.Hand.Region0

end
-- ==== Proof.LibHostColumn.lean ====
/-
  Host-side row and column forms of the layout operations, read at an index given by its coordinates.

  A vector of length b becomes the one-row array [1, b] (the vector laid along axis 1); the one-row array is
  repeated down a rows to [a, b]; and a column [a, 1] is re-laid as the vector of length a. Each lemma reads the
  result at its coordinates: the row forms keep the column coordinate, the column form keeps the row coordinate.
-/
import Idealize.ShloMosaic.Lib.Pipeline.Value
import Idealize.ShloMosaic.Lib.ValueIdx

noncomputable section

namespace Cert.LibHostColumn

open Idealize.ShloMosaic Idealize.ShloMosaic.ValueIdx

variable {α : Type}

/-- A vector of length b laid along axis 1 of [1, b]: the entry at (z, c) is the vector's entry c. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (z : Fin 1) (c : Fin b) :
    broadcastInDim ⟨2, ![1, b]⟩ (![1] : Fin 1 → Fin 2) h x (ix2 z c) = x (ix1 c) := by
  refine broadcastInDim_apply _ h x (ix2 z c) (ix1 c) fun ax => ?_
  match ax with
  | ⟨0, _⟩ =>
    show c.val = if b = 1 then 0 else c.val
    split
    · have := c.isLt; omega
    · rfl

/-- A one-row array [1, b] repeated down a rows (axes kept in place): the entry at (p, c) is the row's entry c. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column [a, 1] re-laid as the vector of length a: the entry i is the column's entry of row i (the
    row-major position of (i, 0) in [a, 1] is i * 1 + 0 = i). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostColumn

end
-- ==== Proof.BiasSpec.lean ====
/-
  A row added to every row of a matrix, and the same followed by the maximum with zero, as whole-array functions
  on the extended reals: entry (p, q) is X (p, q) + B (0, q), resp. max (X (p, q) + B (0, q)) 0, for X of shape [a, b]
  and the one-row array B of shape [1, b].
  Two programs' spellings are both these functions: a block's value computed from the loaded blocks by an
  identity cast, a row broadcast and an elementwise sum (and maximum with a splat zero); and the host's sum with a
  vector laid along axis 1 and repeated down the rows (and maximum with a broadcast scalar zero).
-/
import proofs.«139381_j81003083203566_1_alg».proof.Proof.LibHostColumn
import Idealize.ShloMosaic.Lib.ValueLayout
import Idealize.ShloMosaic.Lib.ValueIdx
import Idealize.ShloMosaic.Lib.Pipeline.Value
import Idealize.ShloMosaic.PureOps.Ideal

noncomputable section

namespace Idealize.ShloMosaic.ValueIdx

open Idealize.ShloMosaic

/-- X with the row B added to each of its rows. -/
def addRow {a b : ℕ} (X : (⟨2, ![a, b]⟩ : Shape).Idx → EReal) (B : (⟨2, ![1, b]⟩ : Shape).Idx → EReal) :
    (⟨2, ![a, b]⟩ : Shape).Idx → EReal :=
  fun i => X (ix2 (⟨(i 0).val, (i 0).isLt⟩ : Fin a) (⟨(i 1).val, (i 1).isLt⟩ : Fin b))
    + B (ix2 (0 : Fin 1) (⟨(i 1).val, (i 1).isLt⟩ : Fin b))

/-- The same, then the maximum with (the value of the word) zero. -/
def addRowRelu {a b : ℕ} (X : (⟨2, ![a, b]⟩ : Shape).Idx → EReal) (B : (⟨2, ![1, b]⟩ : Shape).Idx → EReal) :
    (⟨2, ![a, b]⟩ : Shape).Idx → EReal :=
  fun i => max (addRow X B i) (Ideal.ofBits .f32 0x00000000#32)

theorem addRow_apply {a b : ℕ} (X : (⟨2, ![a, b]⟩ : Shape).Idx → EReal) (B : (⟨2, ![1, b]⟩ : Shape).Idx → EReal)
    (p : Fin a) (q : Fin b) : addRow X B (ix2 p q) = X (ix2 p q) + B (ix2 (0 : Fin 1) q) := rfl

theorem addRowRelu_apply {a b : ℕ} (X : (⟨2, ![a, b]⟩ : Shape).Idx → EReal) (B : (⟨2, ![1, b]⟩ : Shape).Idx → EReal)
    (p : Fin a) (q : Fin b) :
    addRowRelu X B (ix2 p q) = max (X (ix2 p q) + B (ix2 (0 : Fin 1) q)) (Ideal.ofBits .f32 0x00000000#32) := rfl

/-- A block of r rows starting at row o, with the same row added, is that block of the whole array with the row added. -/
theorem addRow_block {a r b : ℕ} (X : (⟨2, ![a, b]⟩ : Shape).Idx → EReal) (B : (⟨2, ![1, b]⟩ : Shape).Idx → EReal)
    (x0 : (⟨2, ![r, b]⟩ : Shape).Idx → EReal) (x1 : (⟨2, ![1, b]⟩ : Shape).Idx → EReal) (o : ℕ) (ho : ∀ p : Fin r, o + p.val < a)
    (h0 : ∀ (p : Fin r) (k : Fin b), x0 (ix2 p k) = X (ix2 (⟨o + p.val, ho p⟩ : Fin a) k))
    (h1 : ∀ (z : Fin 1) (q : Fin b), x1 (ix2 z q) = B (ix2 z q))
    (y : (⟨2, ![r, b]⟩ : Shape).Idx) (i : (⟨2, ![a, b]⟩ : Shape).Idx)
    (hi0 : (i 0).val = o + (y 0).val) (hi1 : (i 1).val = (y 1).val) :
    addRow x0 x1 y = addRow X B i := by
  show x0 (ix2 (⟨(y 0).val, (y 0).isLt⟩ : Fin r) (⟨(y 1).val, (y 1).isLt⟩ : Fin b)) + x1 (ix2 (0 : Fin 1) (⟨(y 1).val, (y 1).isLt⟩ : Fin b))
    = X (ix2 (⟨(i 0).val, (i 0).isLt⟩ : Fin a) (⟨(i 1).val, (i 1).isLt⟩ : Fin b)) + B (ix2 (0 : Fin 1) (⟨(i 1).val, (i 1).isLt⟩ : Fin b))
  rw [h0, h1]
  have e1 : (⟨(y 1).val, (y 1).isLt⟩ : Fin b) = ⟨(i 1).val, (i 1).isLt⟩ := Fin.ext hi1.symm
  rw [e1]
  exact congrArg (fun r' => X (ix2 r' _) + _) (Fin.ext hi0.symm)

theorem addRowRelu_block {a r b : ℕ} (X : (⟨2, ![a, b]⟩ : Shape).Idx → EReal) (B : (⟨2, ![1, b]⟩ : Shape).Idx → EReal)
    (x0 : (⟨2, ![r, b]⟩ : Shape).Idx → EReal) (x1 : (⟨2, ![1, b]⟩ : Shape).Idx → EReal) (o : ℕ) (ho : ∀ p : Fin r, o + p.val < a)
    (h0 : ∀ (p : Fin r) (k : Fin b), x0 (ix2 p k) = X (ix2 (⟨o + p.val, ho p⟩ : Fin a) k))
    (h1 : ∀ (z : Fin 1) (q : Fin b), x1 (ix2 z q) = B (ix2 z q))
    (y : (⟨2, ![r, b]⟩ : Shape).Idx) (i : (⟨2, ![a, b]⟩ : Shape).Idx)
    (hi0 : (i 0).val = o + (y 0).val) (hi1 : (i 1).val = (y 1).val) :
    addRowRelu x0 x1 y = addRowRelu X B i :=
  congrArg (fun v => max v (Ideal.ofBits .f32 0x00000000#32)) (addRow_block X B x0 x1 o ho h0 h1 y i hi0 hi1)

/-! ## A block's value as the kernels' bodies compute it -/

/-- The identity cast of the block, the row cast to itself and broadcast down the rows, the elementwise sum. -/
theorem cast_broadcast_add_eq_addRow {r b : ℕ} (x0 : FVec Ideal ⟨2, ![r, b]⟩ .f32) (x1 : FVec Ideal ⟨2, ![1, b]⟩ .f32)
    (h0 : (⟨2, ![r, b]⟩ : Shape).ShapeCasts ⟨2, ![r, b]⟩) (h1 : (⟨2, ![1, b]⟩ : Shape).ShapeCasts ⟨2, ![1, b]⟩)
    (hb : (⟨2, ![1, b]⟩ : Shape).Broadcasts ⟨2, ![r, b]⟩) :
    addf (shapeCast ⟨2, ![r, b]⟩ x0 h0) (broadcastTo ⟨2, ![r, b]⟩ (shapeCast ⟨2, ![1, b]⟩ x1 h1) hb) = addRow x0 x1 := by
  funext j
  obtain ⟨p, q, rfl⟩ : ∃ (p : Fin r) (q : Fin b), j = ix2 p q := ⟨j 0, j 1, eq_ix2 j⟩
  rw [addRow_apply, shapeCast_self, shapeCast_self]
  show x0 (ix2 p q) + broadcastTo ⟨2, ![r, b]⟩ x1 hb (ix2 p q) = _
  rw [broadcastTo_1b_ab_apply]

/-- The same, then the elementwise maximum with the splat of the zero word. -/
theorem cast_broadcast_add_max_eq_addRowRelu {r b : ℕ} (x0 : FVec Ideal ⟨2, ![r, b]⟩ .f32) (x1 : FVec Ideal ⟨2, ![1, b]⟩ .f32)
    (h0 : (⟨2, ![r, b]⟩ : Shape).ShapeCasts ⟨2, ![r, b]⟩) (h1 : (⟨2, ![1, b]⟩ : Shape).ShapeCasts ⟨2, ![1, b]⟩)
    (hb : (⟨2, ![1, b]⟩ : Shape).Broadcasts ⟨2, ![r, b]⟩) :
    maximumf (addf (shapeCast ⟨2, ![r, b]⟩ x0 h0) (broadcastTo ⟨2, ![r, b]⟩ (shapeCast ⟨2, ![1, b]⟩ x1 h1) hb))
      (broadcast ⟨2, ![r, b]⟩ (Scalar.ofBits (F := Ideal) .f32 0x00000000#32)) = addRowRelu x0 x1 := by
  rw [cast_broadcast_add_eq_addRow]
  rfl

/-! ## The host's spelling -/

/-- The host's sum with a vector laid along axis 1 of [1, b] and repeated down the rows adds the row the vector is
    when cast to [1, b]. -/
theorem host_add_eq_addRow {a b : ℕ} (X : FVec Ideal ⟨2, ![a, b]⟩ .f32) (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (hc : (⟨1, ![b]⟩ : Shape).ShapeCasts ⟨2, ![1, b]⟩) :
    addf X (broadcastInDim ⟨2, ![a, b]⟩ (![0, 1] : Fin 2 → Fin 2) h2 (broadcastInDim ⟨2, ![1, b]⟩ (![1] : Fin 1 → Fin 2) h1 v))
      = addRow X (shapeCast ⟨2, ![1, b]⟩ v hc) := by
  funext j
  obtain ⟨p, q, rfl⟩ : ∃ (p : Fin a) (q : Fin b), j = ix2 p q := ⟨j 0, j 1, eq_ix2 j⟩
  rw [addRow_apply, shapeCast_a_1a_apply]
  show X (ix2 p q) + broadcastInDim ⟨2, ![a, b]⟩ (![0, 1] : Fin 2 → Fin 2) h2 (broadcastInDim ⟨2, ![1, b]⟩ (![1] : Fin 1 → Fin 2) h1 v) (ix2 p q) = _
  rw [Cert.LibHostColumn.broadcastInDim_1b_ab_apply, Cert.LibHostColumn.broadcastInDim_b_1b_apply]

/-- The same, then the host's maximum with a broadcast scalar zero. -/
theorem host_add_max_eq_addRowRelu {a b : ℕ} (X : FVec Ideal ⟨2, ![a, b]⟩ .f32) (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (hc : (⟨1, ![b]⟩ : Shape).ShapeCasts ⟨2, ![1, b]⟩)
    (hz : (⟨0, ![]⟩ : Shape).BroadcastsInDim ⟨2, ![a, b]⟩ (![] : Fin 0 → Fin 2)) :
    maximumf (addf X (broadcastInDim ⟨2, ![a, b]⟩ (![0, 1] : Fin 2 → Fin 2) h2 (broadcastInDim ⟨2, ![1, b]⟩ (![1] : Fin 1 → Fin 2) h1 v)))
      (broadcastInDim ⟨2, ![a, b]⟩ (![] : Fin 0 → Fin 2) hz (constant (F := Ideal) ⟨0, ![]⟩ .f32 0x00000000#32))
      = addRowRelu X (shapeCast ⟨2, ![1, b]⟩ v hc) := by
  rw [host_add_eq_addRow X v h1 h2 hc]
  rfl

end Idealize.ShloMosaic.ValueIdx

end
-- ==== Proof.Region1.lean ====
/-
  Region 1 (the bias row added to every row, then the maximum with zero, tiled over row blocks of 10000) as one whole-array function.
  At grid point t the body loads rows 10000·t … 10000·t + 9999 of the matrix and the one-row bias array, and stores
  max (x + bias, 0) entry by entry; the ten blocks tile the result array. So the result array ends holding that
  function of the two arrays as the region finds them.
-/
import proofs.«139381_j81003083203566_1_alg».proof.Proof.Gen.KernelIdeal.Frame
import proofs.«139381_j81003083203566_1_alg».proof.Proof.BiasSpec
import Idealize.ShloMosaic.Lib.Pipeline.Value

set_option maxRecDepth 16384

noncomputable section

namespace Cert.KernelIdeal.Hand.Region1

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-- The body's stored value as a function of its two loaded blocks. -/
theorem body1_value (x0 : Vec Ideal S10000x128 .f32) (x1 : Vec Ideal S1x128 .f32) :
    k1_pay1 x0 x1 = addRowRelu x0 x1 := by
  unfold k1_pay1
  exact cast_broadcast_add_max_eq_addRowRelu x0 x1 _ _ _

variable (V : (c : Dev nD) → (b : Ref sig .tc) → Buf (Elt Ideal) ((c : Thread nD τ).loc b))

/-- The printed index maps over the grid: the row-block windows move with the point, the bias window stays. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point1_lt (t : Fin cfg1.N) : t.val < 10 := by
  have h := t.isLt
  have hN : cfg1.N = 10 := N_1
  omega

theorem rows_inside (t : Fin cfg1.N) (p : Fin 10000) : t.val * 10000 + p.val < 100000 := by
  have := p.isLt; have := point1_lt t; omega

/-- The matrix window's block at point t is rows 10000·t … of the matrix. -/
theorem lhs_block1 (c : Dev nD) (t : Fin cfg1.N) (p : Fin 10000) (k : Fin 128) :
    (iblk1 V c 0 t : S10000x128.Idx → EReal) (ix2 p k)
      = (V c main_v42 : S100000x128.Idx → EReal) (ix2 (⟨t.val * 10000 + p.val, rows_inside t p⟩ : Fin 100000) k) := by
  unfold iblk1
  rw [View.read_apply]
  show V c main_v42 _ = V c main_v42 _
  congr 1
  funext a
  apply Fin.ext
  obtain ⟨e0, e1, -⟩ := index1 t
  match a with
  | ⟨0, _⟩ => show win1_0.index t 0 * 10000 + 1 * p.val = t.val * 10000 + p.val; rw [e0]; omega
  | ⟨1, _⟩ => show win1_0.index t 1 * 128 + 1 * k.val = k.val; rw [e1]; omega

/-- The bias window's block is the whole one-row array at every point. -/
theorem row_block1 (c : Dev nD) (t : Fin cfg1.N) (z : Fin 1) (q : Fin 128) :
    (iblk1 V c 1 t : S1x128.Idx → EReal) (ix2 z q) = (V c main_v43 : S1x128.Idx → EReal) (ix2 z q) := by
  unfold iblk1
  rw [View.read_apply]
  show V c main_v43 _ = V c main_v43 _
  congr 1
  funext a
  apply Fin.ext
  obtain ⟨-, -, e0, e1, -⟩ := index1 t
  match a with
  | ⟨0, _⟩ => show win1_1.index t 0 * 1 + 1 * z.val = z.val; rw [e0]; omega
  | ⟨1, _⟩ => show win1_1.index t 1 * 128 + 1 * q.val = q.val; rw [e1]; omega

/-- What point t writes back is block t of the function of the two arrays. -/
theorem flushed1 (c : Dev nD) (t : Fin cfg1.N) :
    (dat1 V c).flushed 2 t = ((cfg1.win 2).blk t).view.read (Elt Ideal) (addRowRelu (V c main_v42) (V c main_v43)) := by
  show (cfg1.win 2).cut (grid1.coords t) ((dat1 V c).after 2 t) = _
  rw [after1_2]
  unfold out1_2
  rw [View.canon_unit_zero zeros2]
  simp only [View.ld_unit_zero (S := S10000x128) zeros2, View.ld_unit_zero (S := S1x128) zeros2]
  rw [body1_value]
  funext j
  rw [View.read_apply]
  obtain ⟨-, -, -, -, e0, e1⟩ := index1 t
  refine addRowRelu_block (a := 100000) (r := 10000) (b := 128) (V c main_v42) (V c main_v43) (iblk1 V c 0 t) (iblk1 V c 1 t)
    (t.val * 10000) (rows_inside t) (lhs_block1 V c t) (row_block1 V c t) j _ ?_ ?_
  · show win1_2.index t 0 * 10000 + 1 * (j 0).val = t.val * 10000 + (j 0).val; rw [e0]; omega
  · show win1_2.index t 1 * 128 + 1 * (j 1).val = (j 1).val; rw [e1]; omega

/-- The ten row blocks tile the result array. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have hlt : (i 0).val / 10000 < cfg1.N := by rw [hN]; omega
  refine ⟨⟨(i 0).val / 10000, hlt⟩, flush1_2 _, ?_⟩
  show i ∈ ((View.whole main_v44).slice (win1_2.rect ⟨(i 0).val / 10000, hlt⟩)).set
  rw [View.set_slice_whole, Rect.mem_set_unit]
  obtain ⟨-, -, -, -, e0, e1⟩ := index1 ⟨(i 0).val / 10000, hlt⟩
  intro a
  match a with
  | ⟨0, _⟩ =>
    show win1_2.index _ 0 * 10000 ≤ (i 0).val ∧ (i 0).val < win1_2.index _ 0 * 10000 + 10000
    rw [e0]; show (i 0).val / 10000 * 10000 ≤ (i 0).val ∧ (i 0).val < (i 0).val / 10000 * 10000 + 10000; omega
  | ⟨1, _⟩ =>
    show win1_2.index _ 1 * 128 ≤ (i 1).val ∧ (i 1).val < win1_2.index _ 1 * 128 + 128
    rw [e1]; omega

/-- THE RESULT ARRAY of region 1. -/
theorem region1_array (c : Dev nD) :
    (dat1 V c).arrAt 2 cfg1.N = addRowRelu (V c main_v42) (V c main_v43) :=
  (dat1 V c).arrAt_eq_of_cover 2 (addRowRelu (V c main_v42) (V c main_v43)) (fun t _ => flushed1 V c t) (cover1 c)

end Cert.KernelIdeal.Hand.Region1

end
-- ==== Proof.Region2.lean ====
/-
  Region 2 (the second matrix product, tiled over row blocks of 10000) as one whole-array function.
  At grid point t the body loads rows 10000·t … 10000·t + 9999 of the left array and the whole right matrix, and stores
  their product (the identity cast and the formats' change are the identity on the extended reals); the ten blocks
  tile the result array. So the result array ends holding the product of the two arrays as the region finds them.
-/
import proofs.«139381_j81003083203566_1_alg».proof.Proof.Gen.KernelIdeal.Frame
import proofs.«139381_j81003083203566_1_alg».proof.Proof.ProductSpec
import Idealize.ShloMosaic.Lib.Pipeline.Value

set_option maxRecDepth 16384

noncomputable section

namespace Cert.KernelIdeal.Hand.Region2

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-- The body's stored value is the product of its two loaded blocks. -/
theorem body2_product (x0 : Vec Ideal S10000x128 .f32) (x1 : Vec Ideal S128x64 .f32) :
    k2_pay1 x0 x1 = plainProduct x0 x1 := by
  unfold k2_pay1
  dsimp only
  rw [shapeCast_self]
  exact matmul_zero_eq_plainProduct dot_S10000x128_S128x64_S10000x64_1_0_0_1_n_n rfl rfl rfl rfl rfl rfl none _ _

/-- A block of rows times the matrix is the block of rows of the whole product: entry (p, q) of block `b` is entry
    (10000·b + p, q) of the product of the whole arrays. -/
theorem rows_product (X : S100000x128.Idx → EReal) (Wt : S128x64.Idx → EReal)
    (x0 : S10000x128.Idx → EReal) (x1 : S128x64.Idx → EReal) (b : ℕ) (hb : b < 10)
    (h0 : ∀ (p : Fin 10000) (k : Fin 128), x0 (ix2 p k) = X (ix2 (⟨b * 10000 + p.val, by have := p.isLt; omega⟩ : Fin 100000) k))
    (h1 : ∀ (k : Fin 128) (q : Fin 64), x1 (ix2 k q) = Wt (ix2 k q))
    (y : S10000x64.Idx) (i : S100000x64.Idx) (hi0 : (i 0).val = b * 10000 + (y 0).val) (hi1 : (i 1).val = (y 1).val) :
    plainProduct x0 x1 y = plainProduct X Wt i := by
  show ∑ k : Fin 128, x0 (ix2 (⟨(y 0).val, (y 0).isLt⟩ : Fin 10000) k) * x1 (ix2 k (⟨(y 1).val, (y 1).isLt⟩ : Fin 64))
    = ∑ k : Fin 128, X (ix2 (⟨(i 0).val, (i 0).isLt⟩ : Fin 100000) k) * Wt (ix2 k (⟨(i 1).val, (i 1).isLt⟩ : Fin 64))
  refine Finset.sum_congr rfl fun k _ => ?_
  rw [h0, h1]
  exact congrArg₂ (· * ·) (congrArg (fun r => X (ix2 r k)) (Fin.ext hi0.symm)) (congrArg (fun r => Wt (ix2 k r)) (Fin.ext hi1.symm))

variable (V : (c : Dev nD) → (b : Ref sig .tc) → Buf (Elt Ideal) ((c : Thread nD τ).loc b))

/-- The printed index maps over the grid: the row-block windows move with the point, the matrix window stays. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point2_lt (t : Fin cfg2.N) : t.val < 10 := by
  have h := t.isLt
  have hN : cfg2.N = 10 := N_2
  omega

/-- The left window's block at point t is rows 10000·t … of the left array. -/
theorem lhs_block2 (c : Dev nD) (t : Fin cfg2.N) (p : Fin 10000) (k : Fin 128) :
    (iblk2 V c 0 t : S10000x128.Idx → EReal) (ix2 p k)
      = (V c main_v44 : S100000x128.Idx → EReal) (ix2 (⟨t.val * 10000 + p.val, by have := p.isLt; have := point2_lt t; omega⟩ : Fin 100000) k) := by
  unfold iblk2
  rw [View.read_apply]
  show V c main_v44 _ = V c main_v44 _
  congr 1
  funext a
  apply Fin.ext
  obtain ⟨e0, e1, -⟩ := index2 t
  match a with
  | ⟨0, _⟩ => show win2_0.index t 0 * 10000 + 1 * p.val = t.val * 10000 + p.val; rw [e0]; omega
  | ⟨1, _⟩ => show win2_0.index t 1 * 128 + 1 * k.val = k.val; rw [e1]; omega

/-- The right window's block is the whole right matrix at every point. -/
theorem rhs_block2 (c : Dev nD) (t : Fin cfg2.N) (k : Fin 128) (q : Fin 64) :
    (iblk2 V c 1 t : S128x64.Idx → EReal) (ix2 k q) = (V c main_arg4 : S128x64.Idx → EReal) (ix2 k q) := by
  unfold iblk2
  rw [View.read_apply]
  show V c main_arg4 _ = V c main_arg4 _
  congr 1
  funext a
  apply Fin.ext
  obtain ⟨-, -, e0, e1, -⟩ := index2 t
  match a with
  | ⟨0, _⟩ => show win2_1.index t 0 * 128 + 1 * k.val = k.val; rw [e0]; omega
  | ⟨1, _⟩ => show win2_1.index t 1 * 64 + 1 * q.val = q.val; rw [e1]; omega

/-- What point t writes back is block t of the product of the two arrays. -/
theorem flushed2 (c : Dev nD) (t : Fin cfg2.N) :
    (dat2 V c).flushed 2 t = ((cfg2.win 2).blk t).view.read (Elt Ideal) (plainProduct (V c main_v44) (V c main_arg4)) := by
  show (cfg2.win 2).cut (grid2.coords t) ((dat2 V c).after 2 t) = _
  rw [after2_2]
  unfold out2_2
  rw [View.canon_unit_zero zeros2]
  simp only [View.ld_unit_zero (S := S10000x128) zeros2, View.ld_unit_zero (S := S128x64) zeros2]
  rw [body2_product]
  funext j
  rw [View.read_apply]
  obtain ⟨-, -, -, -, e0, e1⟩ := index2 t
  refine rows_product (V c main_v44) (V c main_arg4) (iblk2 V c 0 t) (iblk2 V c 1 t) t.val (point2_lt t)
    (lhs_block2 V c t) (rhs_block2 V c t) j _ ?_ ?_
  · show win2_2.index t 0 * 10000 + 1 * (j 0).val = t.val * 10000 + (j 0).val; rw [e0]; omega
  · show win2_2.index t 1 * 64 + 1 * (j 1).val = (j 1).val; rw [e1]; omega

/-- The ten row blocks tile the result array. -/
theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have hlt : (i 0).val / 10000 < cfg2.N := by rw [hN]; omega
  refine ⟨⟨(i 0).val / 10000, hlt⟩, flush2_2 _, ?_⟩
  show i ∈ ((View.whole main_v45).slice (win2_2.rect ⟨(i 0).val / 10000, hlt⟩)).set
  rw [View.set_slice_whole, Rect.mem_set_unit]
  obtain ⟨-, -, -, -, e0, e1⟩ := index2 ⟨(i 0).val / 10000, hlt⟩
  intro a
  match a with
  | ⟨0, _⟩ =>
    show win2_2.index _ 0 * 10000 ≤ (i 0).val ∧ (i 0).val < win2_2.index _ 0 * 10000 + 10000
    rw [e0]; show (i 0).val / 10000 * 10000 ≤ (i 0).val ∧ (i 0).val < (i 0).val / 10000 * 10000 + 10000; omega
  | ⟨1, _⟩ =>
    show win2_2.index _ 1 * 64 ≤ (i 1).val ∧ (i 1).val < win2_2.index _ 1 * 64 + 64
    rw [e1]; omega

/-- THE RESULT ARRAY of region 2: the product of the left array and the matrix as the region finds them. -/
theorem region2_array (c : Dev nD) :
    (dat2 V c).arrAt 2 cfg2.N = plainProduct (V c main_v44) (V c main_arg4) :=
  (dat2 V c).arrAt_eq_of_cover 2 (plainProduct (V c main_v44) (V c main_arg4)) (fun t _ => flushed2 V c t) (cover2 c)

end Cert.KernelIdeal.Hand.Region2

end
-- ==== Proof.Region3.lean ====
/-
  Region 3 (the bias row added to every row, tiled over row blocks of 10000) as one whole-array function.
  At grid point t the body loads rows 10000·t … 10000·t + 9999 of the matrix and the one-row bias array, and stores
  x + bias entry by entry; the ten blocks tile the result array. So the result array ends holding that
  function of the two arrays as the region finds them.
-/
import proofs.«139381_j81003083203566_1_alg».proof.Proof.Gen.KernelIdeal.Frame
import proofs.«139381_j81003083203566_1_alg».proof.Proof.BiasSpec
import Idealize.ShloMosaic.Lib.Pipeline.Value

set_option maxRecDepth 16384

noncomputable section

namespace Cert.KernelIdeal.Hand.Region3

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-- The body's stored value as a function of its two loaded blocks. -/
theorem body3_value (x0 : Vec Ideal S10000x64 .f32) (x1 : Vec Ideal S1x64 .f32) :
    k3_pay1 x0 x1 = addRow x0 x1 := by
  unfold k3_pay1
  exact cast_broadcast_add_eq_addRow x0 x1 _ _ _

variable (V : (c : Dev nD) → (b : Ref sig .tc) → Buf (Elt Ideal) ((c : Thread nD τ).loc b))

/-- The printed index maps over the grid: the row-block windows move with the point, the bias window stays. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point3_lt (t : Fin cfg3.N) : t.val < 10 := by
  have h := t.isLt
  have hN : cfg3.N = 10 := N_3
  omega

theorem rows_inside (t : Fin cfg3.N) (p : Fin 10000) : t.val * 10000 + p.val < 100000 := by
  have := p.isLt; have := point3_lt t; omega

/-- The matrix window's block at point t is rows 10000·t … of the matrix. -/
theorem lhs_block3 (c : Dev nD) (t : Fin cfg3.N) (p : Fin 10000) (k : Fin 64) :
    (iblk3 V c 0 t : S10000x64.Idx → EReal) (ix2 p k)
      = (V c main_v57 : S100000x64.Idx → EReal) (ix2 (⟨t.val * 10000 + p.val, rows_inside t p⟩ : Fin 100000) k) := by
  unfold iblk3
  rw [View.read_apply]
  show V c main_v57 _ = V c main_v57 _
  congr 1
  funext a
  apply Fin.ext
  obtain ⟨e0, e1, -⟩ := index3 t
  match a with
  | ⟨0, _⟩ => show win3_0.index t 0 * 10000 + 1 * p.val = t.val * 10000 + p.val; rw [e0]; omega
  | ⟨1, _⟩ => show win3_0.index t 1 * 64 + 1 * k.val = k.val; rw [e1]; omega

/-- The bias window's block is the whole one-row array at every point. -/
theorem row_block3 (c : Dev nD) (t : Fin cfg3.N) (z : Fin 1) (q : Fin 64) :
    (iblk3 V c 1 t : S1x64.Idx → EReal) (ix2 z q) = (V c main_v58 : S1x64.Idx → EReal) (ix2 z q) := by
  unfold iblk3
  rw [View.read_apply]
  show V c main_v58 _ = V c main_v58 _
  congr 1
  funext a
  apply Fin.ext
  obtain ⟨-, -, e0, e1, -⟩ := index3 t
  match a with
  | ⟨0, _⟩ => show win3_1.index t 0 * 1 + 1 * z.val = z.val; rw [e0]; omega
  | ⟨1, _⟩ => show win3_1.index t 1 * 64 + 1 * q.val = q.val; rw [e1]; omega

/-- What point t writes back is block t of the function of the two arrays. -/
theorem flushed3 (c : Dev nD) (t : Fin cfg3.N) :
    (dat3 V c).flushed 2 t = ((cfg3.win 2).blk t).view.read (Elt Ideal) (addRow (V c main_v57) (V c main_v58)) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S1x64) zeros2]
  rw [body3_value]
  funext j
  rw [View.read_apply]
  obtain ⟨-, -, -, -, e0, e1⟩ := index3 t
  refine addRow_block (a := 100000) (r := 10000) (b := 64) (V c main_v57) (V c main_v58) (iblk3 V c 0 t) (iblk3 V c 1 t)
    (t.val * 10000) (rows_inside t) (lhs_block3 V c t) (row_block3 V c t) j _ ?_ ?_
  · show win3_2.index t 0 * 10000 + 1 * (j 0).val = t.val * 10000 + (j 0).val; rw [e0]; omega
  · show win3_2.index t 1 * 64 + 1 * (j 1).val = (j 1).val; rw [e1]; omega

/-- The ten row blocks tile the result array. -/
theorem cover3 (c : Dev nD) (i : ((cfg3.win 2).arr.view.loc (c.tc : Thread nD τ)).2.ty.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have hlt : (i 0).val / 10000 < cfg3.N := by rw [hN]; omega
  refine ⟨⟨(i 0).val / 10000, hlt⟩, flush3_2 _, ?_⟩
  show i ∈ ((View.whole main_v59).slice (win3_2.rect ⟨(i 0).val / 10000, hlt⟩)).set
  rw [View.set_slice_whole, Rect.mem_set_unit]
  obtain ⟨-, -, -, -, e0, e1⟩ := index3 ⟨(i 0).val / 10000, hlt⟩
  intro a
  match a with
  | ⟨0, _⟩ =>
    show win3_2.index _ 0 * 10000 ≤ (i 0).val ∧ (i 0).val < win3_2.index _ 0 * 10000 + 10000
    rw [e0]; show (i 0).val / 10000 * 10000 ≤ (i 0).val ∧ (i 0).val < (i 0).val / 10000 * 10000 + 10000; omega
  | ⟨1, _⟩ =>
    show win3_2.index _ 1 * 64 ≤ (i 1).val ∧ (i 1).val < win3_2.index _ 1 * 64 + 64
    rw [e1]; omega

/-- THE RESULT ARRAY of region 3. -/
theorem region3_array (c : Dev nD) :
    (dat3 V c).arrAt 2 cfg3.N = addRow (V c main_v57) (V c main_v58) :=
  (dat3 V c).arrAt_eq_of_cover 2 (addRow (V c main_v57) (V c main_v58)) (fun t _ => flushed3 V c t) (cover3 c)

end Cert.KernelIdeal.Hand.Region3

end
-- ==== Proof.KernelValue.lean ====
/-
  The idealized kernel's result array is the reference's result stage of the argument arrays.
  The buffer contents are followed through @main's seven segments. The first stretch of host operations leaves the two
  edge lists and the edge weights (functions of the edge array alone); region 0 leaves the first matrix product; the
  second stretch gathers its rows along the edges, scales them and accumulates them per destination node, and lays the
  bias as a row; region 1 adds the bias row and takes the maximum with zero; region 2 leaves the second matrix product;
  the third stretch gathers, scales and accumulates again; region 3 adds the second bias row. At every boundary the
  buffer a later segment reads holds the reference's stage of the same meaning.
-/
import proofs.«139381_j81003083203566_1_alg».proof.Proof.Gen.KernelIdeal.Frame
import proofs.«139381_j81003083203566_1_alg».proof.Proof.Gen.ReferenceIdeal.Read
import proofs.«139381_j81003083203566_1_alg».proof.Proof.HostStretch
import proofs.«139381_j81003083203566_1_alg».proof.Proof.Region0
import proofs.«139381_j81003083203566_1_alg».proof.Proof.Region1
import proofs.«139381_j81003083203566_1_alg».proof.Proof.Region2
import proofs.«139381_j81003083203566_1_alg».proof.Proof.Region3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.Read

/-! ## The reference's matrix products and bias stages as the whole-array functions the regions compute -/

theorem ref_product1 (x0 : (⟨Cert.ReferenceIdeal.S100000x128, .f32⟩ : BufTy).Contents (Elt Ideal))
    (x2 : (⟨Cert.ReferenceIdeal.S128x128, .f32⟩ : BufTy).Contents (Elt Ideal)) :
    val_main_v29 (F := Ideal) x0 x2 = plainProduct x0 x2 := by
  unfold val_main_v29
  simp only [Host.dotGeneral]
  exact dotGeneral_eq_plainProduct _ rfl rfl rfl rfl rfl rfl _ _ _ _

theorem ref_bias_relu (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    val_main_v46 (F := Ideal) x0 x1 x2 x3
      = addRowRelu (val_main_v42 (F := Ideal) x0 x1 x2) (shapeCast S1x128 x3 shapeCasts_S128_S1x128) := by
  unfold val_main_v46 val_main_v45 val_main_v44 val_main_v43 val_main_call0_v0 val_main_call0_cst
  exact host_add_max_eq_addRowRelu _ _ _ _ _ _

theorem ref_product2 (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal)) :
    val_main_v76 (F := Ideal) x0 x1 x2 x3 x4 = plainProduct (val_main_v46 (F := Ideal) x0 x1 x2 x3) x4 := by
  unfold val_main_v76
  simp only [Host.dotGeneral]
  exact dotGeneral_eq_plainProduct _ rfl rfl rfl rfl rfl rfl _ _ _ _

theorem ref_bias2 (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal)) :
    val_main_v92 (F := Ideal) x0 x1 x2 x3 x4 x5
      = addRow (val_main_v89 (F := Ideal) x0 x1 x2 x3 x4) (shapeCast S1x64 x5 shapeCasts_S64_S1x64) := by
  unfold val_main_v92 val_main_v91 val_main_v90
  exact host_add_eq_addRow _ _ _ _ _

/-! ## The buffers through the segments -/

variable (m : (ℓ : Loc nD τ sig) → Buf (Elt Ideal) ℓ) (ρ : Dev nD → PrngReg) (c : Dev nD)

/-! ### After the first stretch (region 0's entry) -/

theorem at1_src : W1 m ρ c (Proc.devRef .tc main_v5) = val_main_v5 (F := Ideal) (m ((c : Thread nD τ).loc main_arg1)) :=
  stretch0_src (W0 m ρ c)
theorem at1_dst : W1 m ρ c (Proc.devRef .tc main_v6) = val_main_v6 (F := Ideal) (m ((c : Thread nD τ).loc main_arg1)) :=
  stretch0_dst (W0 m ρ c)
theorem at1_weight : W1 m ρ c (Proc.devRef .tc main_v29) = val_main_v37 (F := Ideal) (m ((c : Thread nD τ).loc main_arg1)) :=
  stretch0_weight (W0 m ρ c)
theorem at1_arg0 : W1 m ρ c (Proc.devRef .tc main_arg0) = m ((c : Thread nD τ).loc main_arg0) := stretch0_arg0 (W0 m ρ c)
theorem at1_arg2 : W1 m ρ c (Proc.devRef .tc main_arg2) = m ((c : Thread nD τ).loc main_arg2) := stretch0_arg2 (W0 m ρ c)
theorem at1_arg3 : W1 m ρ c (Proc.devRef .tc main_arg3) = m ((c : Thread nD τ).loc main_arg3) := stretch0_arg3 (W0 m ρ c)
theorem at1_arg4 : W1 m ρ c (Proc.devRef .tc main_arg4) = m ((c : Thread nD τ).loc main_arg4) := stretch0_arg4 (W0 m ρ c)
theorem at1_arg5 : W1 m ρ c (Proc.devRef .tc main_arg5) = m ((c : Thread nD τ).loc main_arg5) := stretch0_arg5 (W0 m ρ c)

/-! ### After region 0 -/

theorem at2_product : W2 m ρ c (Proc.devRef .tc main_v30)
    = val_main_v29 (F := Ideal) (m ((c : Thread nD τ).loc main_arg0)) (m ((c : Thread nD τ).loc main_arg2)) := by
  rw [ref_product1]
  refine (W2_arr m ρ c 2).trans ?_
  rw [Region0.region0_array (V1 m ρ) c]
  show plainProduct (W1 m ρ c (Proc.devRef .tc main_arg0)) (W1 m ρ c (Proc.devRef .tc main_arg2)) = _
  rw [at1_arg0, at1_arg2]

theorem at2_src : W2 m ρ c (Proc.devRef .tc main_v5) = val_main_v5 (F := Ideal) (m ((c : Thread nD τ).loc main_arg1)) :=
  (W2_of_ne m ρ c main_v5 (by decide)).trans (at1_src m ρ c)
theorem at2_dst : W2 m ρ c (Proc.devRef .tc main_v6) = val_main_v6 (F := Ideal) (m ((c : Thread nD τ).loc main_arg1)) :=
  (W2_of_ne m ρ c main_v6 (by decide)).trans (at1_dst m ρ c)
theorem at2_weight : W2 m ρ c (Proc.devRef .tc main_v29) = val_main_v37 (F := Ideal) (m ((c : Thread nD τ).loc main_arg1)) :=
  (W2_of_ne m ρ c main_v29 (by decide)).trans (at1_weight m ρ c)
theorem at2_arg3 : W2 m ρ c (Proc.devRef .tc main_arg3) = m ((c : Thread nD τ).loc main_arg3) :=
  (W2_of_ne m ρ c main_arg3 (by decide)).trans (at1_arg3 m ρ c)
theorem at2_arg4 : W2 m ρ c (Proc.devRef .tc main_arg4) = m ((c : Thread nD τ).loc main_arg4) :=
  (W2_of_ne m ρ c main_arg4 (by decide)).trans (at1_arg4 m ρ c)
theorem at2_arg5 : W2 m ρ c (Proc.devRef .tc main_arg5) = m ((c : Thread nD τ).loc main_arg5) :=
  (W2_of_ne m ρ c main_arg5 (by decide)).trans (at1_arg5 m ρ c)

/-! ### After the second stretch (region 1's entry) -/

theorem at3_agg : W3 m ρ c (Proc.devRef .tc main_v42)
    = val_main_v42 (F := Ideal) (m ((c : Thread nD τ).loc main_arg0)) (m ((c : Thread nD τ).loc main_arg1)) (m ((c : Thread nD τ).loc main_arg2)) :=
  stretch1_agg (W2 m ρ c) _ _ _ (at2_product m ρ c) (at2_src m ρ c) (at2_dst m ρ c) (at2_weight m ρ c)

theorem at3_bias : W3 m ρ c (Proc.devRef .tc main_v43)
    = shapeCast S1x128 (m ((c : Thread nD τ).loc main_arg3) : (⟨S128, .f32⟩ : BufTy).Contents (Elt Ideal)) shapeCasts_S128_S1x128 := by
  refine (stretch1_bias (W2 m ρ c)).trans ?_
  rw [at2_arg3]

theorem at3_src : W3 m ρ c (Proc.devRef .tc main_v5) = val_main_v5 (F := Ideal) (m ((c : Thread nD τ).loc main_arg1)) :=
  (stretch1_src (W2 m ρ c)).trans (at2_src m ρ c)
theorem at3_dst : W3 m ρ c (Proc.devRef .tc main_v6) = val_main_v6 (F := Ideal) (m ((c : Thread nD τ).loc main_arg1)) :=
  (stretch1_dst (W2 m ρ c)).trans (at2_dst m ρ c)
theorem at3_weight : W3 m ρ c (Proc.devRef .tc main_v29) = val_main_v37 (F := Ideal) (m ((c : Thread nD τ).loc main_arg1)) :=
  (stretch1_weight (W2 m ρ c)).trans (at2_weight m ρ c)
theorem at3_arg4 : W3 m ρ c (Proc.devRef .tc main_arg4) = m ((c : Thread nD τ).loc main_arg4) :=
  (stretch1_arg4 (W2 m ρ c)).trans (at2_arg4 m ρ c)
theorem at3_arg5 : W3 m ρ c (Proc.devRef .tc main_arg5) = m ((c : Thread nD τ).loc main_arg5) :=
  (stretch1_arg5 (W2 m ρ c)).trans (at2_arg5 m ρ c)

/-! ### After region 1 (region 2's entry) -/

theorem at4_hidden : W4 m ρ c (Proc.devRef .tc main_v44)
    = val_main_v46 (F := Ideal) (m ((c : Thread nD τ).loc main_arg0)) (m ((c : Thread nD τ).loc main_arg1)) (m ((c : Thread nD τ).loc main_arg2)) (m ((c : Thread nD τ).loc main_arg3)) := by
  rw [ref_bias_relu]
  refine (W4_arr m ρ c 2).trans ?_
  rw [Region1.region1_array (V3 m ρ) c]
  show addRowRelu (W3 m ρ c (Proc.devRef .tc main_v42)) (W3 m ρ c (Proc.devRef .tc main_v43)) = _
  rw [at3_agg, at3_bias]

theorem at4_src : W4 m ρ c (Proc.devRef .tc main_v5) = val_main_v5 (F := Ideal) (m ((c : Thread nD τ).loc main_arg1)) :=
  (W4_of_ne m ρ c main_v5 (by decide)).trans (at3_src m ρ c)
theorem at4_dst : W4 m ρ c (Proc.devRef .tc main_v6) = val_main_v6 (F := Ideal) (m ((c : Thread nD τ).loc main_arg1)) :=
  (W4_of_ne m ρ c main_v6 (by decide)).trans (at3_dst m ρ c)
theorem at4_weight : W4 m ρ c (Proc.devRef .tc main_v29) = val_main_v37 (F := Ideal) (m ((c : Thread nD τ).loc main_arg1)) :=
  (W4_of_ne m ρ c main_v29 (by decide)).trans (at3_weight m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)

/-! ### After region 2 (the third stretch's entry) -/

theorem at5_product : W5 m ρ c (Proc.devRef .tc main_v45)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [ref_product2]
  refine (W5_arr m ρ c 2).trans ?_
  rw [Region2.region2_array (V4 m ρ) c]
  show plainProduct (W4 m ρ c (Proc.devRef .tc main_v44)) (W4 m ρ c (Proc.devRef .tc main_arg4)) = _
  rw [at4_hidden, at4_arg4]

theorem at5_src : W5 m ρ c (Proc.devRef .tc main_v5) = val_main_v5 (F := Ideal) (m ((c : Thread nD τ).loc main_arg1)) :=
  (W5_of_ne m ρ c main_v5 (by decide)).trans (at4_src m ρ c)
theorem at5_dst : W5 m ρ c (Proc.devRef .tc main_v6) = val_main_v6 (F := Ideal) (m ((c : Thread nD τ).loc main_arg1)) :=
  (W5_of_ne m ρ c main_v6 (by decide)).trans (at4_dst m ρ c)
theorem at5_weight : W5 m ρ c (Proc.devRef .tc main_v29) = val_main_v37 (F := Ideal) (m ((c : Thread nD τ).loc main_arg1)) :=
  (W5_of_ne m ρ c main_v29 (by decide)).trans (at4_weight m ρ c)
theorem at5_arg5 : W5 m ρ c (Proc.devRef .tc main_arg5) = m ((c : Thread nD τ).loc main_arg5) :=
  (W5_of_ne m ρ c main_arg5 (by decide)).trans (at4_arg5 m ρ c)

/-! ### After the third stretch (region 3's entry) -/

theorem at6_agg : W6 m ρ c (Proc.devRef .tc main_v57)
    = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stretch3_agg (W5 m ρ c) _ _ _ _ _ (at5_product m ρ c) (at5_src m ρ c) (at5_dst m ρ c) (at5_weight m ρ c)

theorem at6_bias : W6 m ρ c (Proc.devRef .tc main_v58)
    = shapeCast S1x64 (m ((c : Thread nD τ).loc main_arg5) : (⟨S64, .f32⟩ : BufTy).Contents (Elt Ideal)) shapeCasts_S64_S1x64 := by
  refine (stretch3_bias (W5 m ρ c)).trans ?_
  rw [at5_arg5]

/-! ### After region 3: the result -/

/-- THE RESULT: the last boundary's contents at the result buffer are the reference's result stage of the arguments. -/
theorem result_eq : W7 m ρ c (Proc.devRef .tc main_v59)
    = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ref_bias2]
  refine (W7_arr m ρ c 2).trans ?_
  rw [Region3.region3_array (V6 m ρ) c]
  show addRow (W6 m ρ c (Proc.devRef .tc main_v57)) (W6 m ρ c (Proc.devRef .tc main_v58)) = _
  rw [at6_agg, at6_bias]

end Cert.KernelIdeal.Hand

end
-- ==== Proof.lean ====
/-
  A two-layer graph convolution, tiled on the matrix unit, against its plain reference, on the extended reals.

  Both programs compute, from node features x [100000, 128], an edge array [2, 1600000] of source and destination
  nodes, and two weight/bias pairs: the edge lists with one self loop per node appended; each node's degree (an
  accumulating scatter of ones), its inverse square root after a maximum with one, and the edge weight
  dinv[src] · dinv[dst]; then per layer the matrix product of the features with the weights, its rows gathered at the
  sources, scaled by the edge weights and accumulated at the destinations, plus the bias row — with a maximum with zero
  after the first layer.

  The kernel's program differs from the reference in three ways only, none of which changes a value on the extended
  reals: it computes the edge lists and weights once where the reference computes them once per layer (one function of
  the edge array); it tiles each matrix product and each bias pass over ten blocks of 10000 rows, the blocks tiling the
  result (a block of rows of a product is the product of the block of rows); and it rounds the products' operands to a
  narrower format, which is the identity here. A matrix unit's product into a zero accumulator and the host's
  dot_general are the same finite sum. No law used needs finiteness, so the precondition is never opened.

  Every execution of each program terminates, faults nowhere and leaves the arguments as launched (the three frames);
  the idealization rewrote nothing (preserves); and the two idealized programs end with equal results.
-/
import proofs.«139381_j81003083203566_1_alg».proof.Defs
import proofs.«139381_j81003083203566_1_alg».proof.Proof.Gen.Kernel
import proofs.«139381_j81003083203566_1_alg».proof.Proof.Gen.Kernel.Frame
import proofs.«139381_j81003083203566_1_alg».proof.Proof.Gen.KernelIdeal
import proofs.«139381_j81003083203566_1_alg».proof.Proof.Gen.KernelIdeal.Frame
import proofs.«139381_j81003083203566_1_alg».proof.Proof.Gen.ReferenceIdeal
import proofs.«139381_j81003083203566_1_alg».proof.Proof.Gen.ReferenceIdeal.Run
import proofs.«139381_j81003083203566_1_alg».proof.Proof.Gen.ReferenceIdeal.Read
import proofs.«139381_j81003083203566_1_alg».proof.Proof.Gen.Pre_finite_inputs
import proofs.«139381_j81003083203566_1_alg».proof.Proof.KRun
import proofs.«139381_j81003083203566_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array ends at the reference's result stage of the kernel's arguments, the reference's at the
    same stage of its own; the arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v59),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v92 m' c = Cert.KernelIdeal.Gen.W7 m ρ c (Proc.devRef .tc Cert.KernelIdeal.main_v59)
  rw [Cert.ReferenceIdeal.Read.val_main_v92_eq, Cert.KernelIdeal.Hand.result_eq]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
